-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x512 .f32) (main_arg1 : FVec F S1024x512 .f32) (main_arg2 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  main_v13
-- ==== Kernel.lean ====
abbrev S16384x512 : Shape := ⟨2, ![16384, 512]⟩
abbrev S1024x512 : Shape := ⟨2, ![1024, 512]⟩
abbrev S_ : Shape := ⟨0, ![]⟩
abbrev S1024 : Shape := ⟨1, ![1024]⟩
abbrev S512x1024 : Shape := ⟨2, ![512, 1024]⟩
abbrev S1x1024 : Shape := ⟨2, ![1, 1024]⟩
abbrev S16384x1024 : Shape := ⟨2, ![16384, 1024]⟩
abbrev S512x512 : Shape := ⟨2, ![512, 512]⟩

abbrev nBuf : Space → Nat
  | .hbm => 36
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S512x1024, .f32⟩
  | .hbm, ⟨30, _⟩ => ⟨S512x1024, .bf16⟩
  | .hbm, ⟨31, _⟩ => ⟨S1024x512, .f32⟩
  | .hbm, ⟨32, _⟩ => ⟨S512x1024, .f32⟩
  | .hbm, ⟨33, _⟩ => ⟨S512x1024, .bf16⟩
  | .hbm, ⟨34, _⟩ => ⟨S1x1024, .f32⟩
  | .hbm, ⟨35, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x512 : S_.BroadcastsInDim S1024x512 (![] : Fin 0 → Fin S1024x512.rank)
  reducesTo_S1024x512_S1024_d1 : S1024x512.ReducesTo [1] S1024
  h_S_ : 0 < S_.numel
  bcast_S_S1024 : S_.BroadcastsInDim S1024 (![] : Fin 0 → Fin S1024.rank)
  transposes_S1024x512_S512x1024_1_0 : S1024x512.Transposes [1, 0] S512x1024
  bitsLt_bf16_f32 : FTy.bits .bf16 < FTy.bits .f32
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S_ : Shape := ⟨0, ![]⟩
abbrev S1024 : Shape := ⟨1, ![1024]⟩
abbrev S512x1024 : Shape := ⟨2, ![512, 1024]⟩
abbrev S1x1024 : Shape := ⟨2, ![1, 1024]⟩
abbrev S16384x1024 : Shape := ⟨2, ![16384, 1024]⟩
abbrev S512x512 : Shape := ⟨2, ![512, 512]⟩

abbrev nBuf : Space → Nat
  | .hbm => 34
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024x512, .f32⟩
  | .hbm, ⟨3, _⟩ => ⟨S_, .f32⟩
  | .hbm, ⟨4, _⟩ => ⟨S1024x512, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S512x1024, .f32⟩
  | .hbm, ⟨30, _⟩ => ⟨S1024x512, .f32⟩
  | .hbm, ⟨31, _⟩ => ⟨S512x1024, .f32⟩
  | .hbm, ⟨32, _⟩ => ⟨S1x1024, .f32⟩
  | .hbm, ⟨33, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S1024x512 : S_.BroadcastsInDim S1024x512 (![] : Fin 0 → Fin S1024x512.rank)
  reducesTo_S1024x512_S1024_d1 : S1024x512.ReducesTo [1] S1024
  h_S_ : 0 < S_.numel
  bcast_S_S1024 : S_.BroadcastsInDim S1024 (![] : Fin 0 → Fin S1024.rank)
  transposes_S1024x512_S512x1024_1_0 : S1024x512.Transposes [1, 0] S512x1024
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 false = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1024.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false false 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.GaussianForm.lean ====
/-
  The Gaussian layer as one function of its three arguments.

  For inputs x (16384 rows of 512 features) and per-class centers and covariances (1024 classes of 512 features)
  the layer's log-likelihood of row b under class c is written as the expanded quadratic form

      out(b, c) = ∑_d x(b,d)² · wq(d,c) + ∑_d x(b,d) · wc(d,c) + bias(c),

  with, for e = cov + ε and r = 1 / e,  wq(d,c) = −½ · r(c,d),  wc(d,c) = center(c,d) · r(c,d)  and
  bias(c) = (−½ · ∑_d log e(c,d) − K) − ½ · ∑_d center(c,d)² · r(c,d)   (K the constant ½ · 512 · log 2π, rounded).
  The weights and the bias are computed once, before the tiled part; the tiled part computes, for each tile of 512
  rows, the two products with the whole weight matrices and adds the bias row to every row.

  This file states those pieces over the extended reals: the precomputed weights and bias as functions of the
  centers and covariances, the whole result index by index, and one tile's value read at an entry.
-/
import Idealize.ShloMosaic.PureOps.Ideal.Laws
import Idealize.ShloMosaic.Lib.ValueIdx
import Idealize.ShloMosaic.Lib.Pipeline.Value
import proofs.«119700_g2000000273362702_pallasbulk_375_2_alg».proof.Proof.LibPlainDot

noncomputable section

namespace Cert.GaussianForm

open Idealize.ShloMosaic Idealize.ShloMosaic.ValueIdx
open scoped BigOperators

/-- The inputs: 16384 rows of 512 features. -/
abbrev SX : Shape := ⟨2, ![16384, 512]⟩
/-- The centers and the covariances: 1024 classes of 512 features. -/
abbrev SP : Shape := ⟨2, ![1024, 512]⟩
/-- A weight matrix: 512 features by 1024 classes. -/
abbrev SW : Shape := ⟨2, ![512, 1024]⟩
/-- The bias row. -/
abbrev SB : Shape := ⟨2, ![1, 1024]⟩
/-- The result: 16384 rows by 1024 classes. -/
abbrev SO : Shape := ⟨2, ![16384, 1024]⟩
/-- One tile of inputs: 512 rows of 512 features. -/
abbrev ST : Shape := ⟨2, ![512, 512]⟩
/-- A scalar. -/
abbrev S0 : Shape := ⟨0, ![]⟩
/-- One number per class. -/
abbrev SC : Shape := ⟨1, ![1024]⟩

theorem splat_SP : S0.BroadcastsInDim SP (![] : Fin 0 → Fin SP.rank) := by decide
theorem splat_SC : S0.BroadcastsInDim SC (![] : Fin 0 → Fin SC.rank) := by decide
theorem rowsum : SP.ReducesTo [1] SC := by decide
theorem scalar_pos : 0 < S0.numel := by decide
theorem flip : SP.Transposes [1, 0] SW := by decide
theorem asRow : SC.ShapeCasts SB := by decide

/-! ## What is computed before the tiled part -/

/-- A constant in every (class, feature) position. -/
def splatP (w : BitVec 32) : FVec Ideal SP .f32 := broadcastInDim SP ![] splat_SP (constant S0 .f32 w)
/-- A constant for every class. -/
def splatC (w : BitVec 32) : FVec Ideal SC .f32 := broadcastInDim SC ![] splat_SC (constant S0 .f32 w)

/-- e = cov + ε. -/
def covEps (covs : FVec Ideal SP .f32) : FVec Ideal SP .f32 := addf covs (splatP 0x34000000#32)
/-- r = 1 / (cov + ε). -/
def invCov (covs : FVec Ideal SP .f32) : FVec Ideal SP .f32 := Host.divf (splatP 0x3F800000#32) (covEps covs)
/-- wq = (−½ · r) with features as rows. -/
def quadWeights (covs : FVec Ideal SP .f32) : FVec Ideal SW .f32 :=
  transpose SW [1, 0] (mulf (splatP 0xBF000000#32) (invCov covs)) flip
/-- wc = (center · r) with features as rows. -/
def crossWeights (centers covs : FVec Ideal SP .f32) : FVec Ideal SW .f32 :=
  transpose SW [1, 0] (mulf centers (invCov covs)) flip
/-- bias = (−½ · ∑ log e − K) − ½ · ∑ center² · r, as a row. -/
def classBias (centers covs : FVec Ideal SP .f32) : FVec Ideal SB .f32 :=
  shapeCast SB
    (subf
      (subf (mulf (splatC 0xBF000000#32) (Host.reduceAdd (Host.log (covEps covs)) (constant S0 .f32 0x00000000#32) rowsum scalar_pos))
        (splatC 0x43EB3F8E#32))
      (mulf (splatC 0x3F000000#32)
        (Host.reduceAdd (mulf (mulf centers centers) (invCov covs)) (constant S0 .f32 0x00000000#32) rowsum scalar_pos)))
    asRow

/-! ## The whole result -/

/-- The expanded quadratic form at (row, class), for given weights and bias row. -/
def quadForm {φq φc : FTy} (x : FVec Ideal SX .f32) (wq : FVec Ideal SW φq) (wc : FVec Ideal SW φc) (b : FVec Ideal SB .f32) :
    SO.Idx → EReal :=
  fun i => (∑ k : Fin 512, x (ix2 (i 0) k) * x (ix2 (i 0) k) * wq (ix2 k (i 1)))
    + (∑ k : Fin 512, x (ix2 (i 0) k) * wc (ix2 k (i 1))) + b (ix2 0 (i 1))

/-- The layer's result as a function of its three arguments. -/
def loglik (x : FVec Ideal SX .f32) (centers covs : FVec Ideal SP .f32) : SO.Idx → EReal :=
  quadForm x (quadWeights covs) (crossWeights centers covs) (classBias centers covs)

/-! ## One tile, read at an entry -/

/-- The sum of the two products of a tile with the weight matrices plus the bias row spread over the rows, at entry
    (p, q): the two contractions over the 512 features and the bias of class q. The two left operands are kept
    separate (one is the tile squared entry by entry, the other the tile). -/
theorem tile_apply {φa φb φq φc : FTy} (d : DotDims ST SW SW) (hd : d = DotDims.plain 512 512 1024)
    (prec : Option ContractPrecision) (hw : SW.ShapeCasts SW) (hb : SB.ShapeCasts SB) (hs : SB.Broadcasts SW)
    (xq : FVec Ideal ST φa) (xc : FVec Ideal ST φb) (wq : FVec Ideal SW φq) (wc : FVec Ideal SW φc) (b : FVec Ideal SB .f32)
    (p : Fin 512) (q : Fin 1024) :
    addf (addf (matmul d prec xq (shapeCast SW wq hw) (constant (F := Ideal) SW .f32 0x00000000#32))
        (matmul d prec xc (shapeCast SW wc hw) (constant (F := Ideal) SW .f32 0x00000000#32)))
      (broadcastTo SW (shapeCast SB b hb) hs) (ix2 p q)
    = (∑ k : Fin 512, xq (ix2 p k) * wq (ix2 k q)) + (∑ k : Fin 512, xc (ix2 p k) * wc (ix2 k q)) + b (ix2 0 q) := by
  rw [shapeCast_self wq hw, shapeCast_self wc hw, shapeCast_self b hb]
  show (FloatOps.matmul d prec xq wq (constant SW .f32 0x00000000#32) (ix2 p q)
      + FloatOps.matmul d prec xc wc (constant SW .f32 0x00000000#32) (ix2 p q))
      + broadcastTo SW b hs (ix2 p q) = _
  rw [Cert.LibPlainDot.matmul_zero_apply d hd prec xq wq p q, Cert.LibPlainDot.matmul_zero_apply d hd prec xc wc p q,
    broadcastTo_apply b hs (ix2 p q) (ix2 0 q) (fun a => by
      match a with
      | ⟨0, _⟩ => rfl
      | ⟨1, _⟩ => rfl)]

end Cert.GaussianForm

end
-- ==== Proof.KernelTiles.lean ====
/-
  The tiled computation with the weights kept in the narrower float format, as one function of the arguments.

  The program first computes the two weight matrices wq, wc (rounded to the narrower format, which changes nothing on
  the extended reals) and the bias row from the centers and covariances, then runs 32 tiles of 512 rows: each tile reads
  its rows of the inputs and all of wq, wc and the bias, and writes its rows of the result. Shown here: one tile's value
  at an entry is the expanded quadratic form there; each tile's reads are the stated parts of the arrays; the arrays the
  tiles find are wq, wc and the bias of the arguments; the 32 tiles cover the result; so the result array after the run
  is the layer's function `GaussianForm.loglik` of the three arguments.
-/
import proofs.«119700_g2000000273362702_pallasbulk_375_2_alg».proof.Proof.Gen.KernelIdeal.Frame
import proofs.«119700_g2000000273362702_pallasbulk_375_2_alg».proof.Proof.Gen.KernelIdeal.Value
import proofs.«119700_g2000000273362702_pallasbulk_375_2_alg».proof.Proof.GaussianForm
import Idealize.ShloMosaic.Lib.Pipeline.Value
import Idealize.ShloMosaic.Lib.StableHlo.Run
import Idealize.ShloMosaic.Lib.Tactic

noncomputable section

namespace Cert.KernelIdeal.Tiles

open Cert.KernelIdeal Cert.KernelIdeal.Gen Cert.KernelIdeal.Value Cert.GaussianForm
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- A tile's loads and its store start at the origin of their buffers. -/
theorem hz : (![0, 0] : Fin 2 → Nat) = fun _ => 0 := funext fun a => by fin_cases a <;> rfl

/-! ## One tile at an entry -/

/-- What a tile stores, at entry (p, q). The tile squared and the tile itself are rounded to the narrower format before the
    products, which is the identity on the extended reals, so the entry is the two contractions over the 512 features
    plus the bias of class q. -/
theorem pay_apply (x0 : Vec Ideal S512x512 .f32) (x1 x2 : Vec Ideal S512x1024 .bf16) (x3 : Vec Ideal S1x1024 .f32)
    (p : Fin 512) (q : Fin 1024) :
    k0_pay1 x0 x0 x0 x1 x2 x3 (ix2 p q)
      = (∑ k : Fin 512, x0 (ix2 p k) * x0 (ix2 p k) * x1 (ix2 k q)) + (∑ k : Fin 512, x0 (ix2 p k) * x2 (ix2 k q)) + x3 (ix2 0 q) := by
  unfold k0_pay1
  exact tile_apply _ rfl none _ _ _ (truncf .bf16 (mulf x0 x0) bitsLt_bf16_f32) (truncf .bf16 x0 bitsLt_bf16_f32) x1 x2 x3 p q

/-! ## Which part of each array a tile reads and writes -/

/-- Over the 32 tiles: the input tile and the output tile are the same block of rows, the two weight matrices and the
    bias row are read whole every time, the output tile spans all classes, and the row blocks are numbered below 32. -/
theorem tile_blocks : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every block of 512 rows is some tile's. -/
theorem every_block : ∀ q0 : Fin 32, ∃ t : Fin cfg0.N, win0_4.index t = ![q0.val, 0] :=
  (by decide +kernel : ∀ q0 : Fin 32, ∃ t : Fin grid0.N, win0_4.index t = ![q0.val, 0])

/-- The input tile at point `t`, at entry `y`, is the input array at row (block · 512 + y₀) and column y₁. -/
theorem xtile_apply (c : Dev nD) (t : Fin cfg0.N) (y : S512x512.Idx) (i : S16384x512.Idx)
    (h0 : (i 0).val = win0_4.index t (0 : Fin 2) * 512 + (y 0).val) (h1 : (i 1).val = (y 1).val) :
    (iblk m c 0 t : Vec Ideal S512x512 .f32) y = (m ((c : Thread nD τ).loc main_arg0) : S16384x512.Idx → EReal) i := by
  obtain ⟨e0, e1, -⟩ := tile_blocks t
  unfold iblk
  rw [View.read_apply]
  show V m c main_arg0 _ = _
  rw [V_main_arg0]
  congr 1
  funext a; apply Fin.ext
  match a with
  | ⟨0, _⟩ => show win0_0.index t (0 : Fin 2) * 512 + 1 * (y 0).val = (i 0).val; omega
  | ⟨1, _⟩ => show win0_0.index t (1 : Fin 2) * 512 + 1 * (y 1).val = (i 1).val; omega

/-- Every tile reads the whole first weight matrix. -/
theorem wq_tile (c : Dev nD) (t : Fin cfg0.N) :
    (iblk m c 1 t : Vec Ideal S512x1024 .bf16) = (V m c main_v19 : S512x1024.Idx → EReal) := by
  obtain ⟨-, -, e2, e3, -⟩ := tile_blocks t
  funext y
  unfold iblk
  rw [View.read_apply]
  show V m c main_v19 _ = V m c main_v19 y
  congr 1
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega

/-- Every tile reads the whole second weight matrix. -/
theorem wc_tile (c : Dev nD) (t : Fin cfg0.N) :
    (iblk m c 2 t : Vec Ideal S512x1024 .bf16) = (V m c main_v22 : S512x1024.Idx → EReal) := by
  obtain ⟨-, -, -, -, e4, e5, -⟩ := tile_blocks t
  funext y
  unfold iblk
  rw [View.read_apply]
  show V m c main_v22 _ = V m c main_v22 y
  congr 1
  funext a; apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-- Every tile reads the whole bias row. -/
theorem bias_tile (c : Dev nD) (t : Fin cfg0.N) :
    (iblk m c 3 t : Vec Ideal S1x1024 .f32) = (V m c main_v23 : S1x1024.Idx → EReal) := by
  obtain ⟨-, -, -, -, -, -, e6, e7, -⟩ := tile_blocks t
  funext y
  unfold iblk
  rw [View.read_apply]
  show V m c main_v23 _ = V m c main_v23 y
  congr 1
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-! ## What is computed before the tiled part -/

/-- The first weight matrix as the tiled part finds it is wq of the covariances (its rounding to the narrower format is the identity on the extended reals). -/
theorem wq_entry (c : Dev nD) :
    (V m c main_v19 : S512x1024.Idx → EReal) = quadWeights (m ((c : Thread nD τ).loc main_arg2)) := by
  dsimp only [V, hostOps0]
  after_results
  rfl

/-- The second weight matrix as the tiled part finds it is wc of the centers and covariances (its rounding to the narrower format is the identity on the extended reals). -/
theorem wc_entry (c : Dev nD) :
    (V m c main_v22 : S512x1024.Idx → EReal)
      = crossWeights (m ((c : Thread nD τ).loc main_arg1)) (m ((c : Thread nD τ).loc main_arg2)) := by
  dsimp only [V, hostOps0]
  after_results
  rfl

/-- The bias row as the tiled part finds it is the bias of the centers and covariances. -/
theorem bias_entry (c : Dev nD) :
    (V m c main_v23 : S1x1024.Idx → EReal)
      = classBias (m ((c : Thread nD τ).loc main_arg1)) (m ((c : Thread nD τ).loc main_arg2)) := by
  dsimp only [V, hostOps0]
  after_results_simp
  rfl

/-! ## What a tile writes back, and the whole result -/

/-- What tile `t` writes back is its block of the layer's function of the three arguments: at entry j of the tile,
    row (block · 512 + j₀) of the inputs against all of the weights, and the bias of class j₁. -/
theorem flushed_eq (c : Dev nD) (t : Fin cfg0.N) :
    (dats m 0 c).flushed 4 t = ((cfg0.win 4).blk t).view.read (Elt Ideal)
      (loglik (m ((c : Thread nD τ).loc main_arg0)) (m ((c : Thread nD τ).loc main_arg1)) (m ((c : Thread nD τ).loc main_arg2))) := by
  rw [flushed4]
  unfold out0_4
  rw [View.canon_unit_zero hz]
  simp only [View.ld_unit_zero (S := S512x512) hz, View.ld_unit_zero (S := S512x1024) hz, View.ld_unit_zero (S := S1x1024) hz]
  obtain ⟨-, -, -, -, -, -, -, -, e8, e9⟩ := tile_blocks t
  funext j
  show k0_pay1 (iblk m c 0 t) (iblk m c 0 t) (iblk m c 0 t) (iblk m c 1 t) (iblk m c 2 t) (iblk m c 3 t) (j : S512x1024.Idx)
      = loglik (m ((c : Thread nD τ).loc main_arg0)) (m ((c : Thread nD τ).loc main_arg1)) (m ((c : Thread nD τ).loc main_arg2))
          (((cfg0.win 4).blk t).view.emb j)
  have hj0 : (j 0).val < 512 := (j 0).isLt
  have hj1 : (j 1).val < 1024 := (j 1).isLt
  have he1 : (((cfg0.win 4).blk t).view.emb j) 1 = j 1 :=
    Fin.ext (show win0_4.index t (1 : Fin 2) * 1024 + 1 * (j 1).val = (j 1).val by omega)
  have hx : ∀ k : Fin 512, (iblk m c 0 t : Vec Ideal S512x512 .f32) (ix2 (j 0) k)
      = (m ((c : Thread nD τ).loc main_arg0) : S16384x512.Idx → EReal) (ix2 ((((cfg0.win 4).blk t).view.emb j) 0) k) :=
    fun k => xtile_apply m c t _ _
      (show win0_4.index t (0 : Fin 2) * 512 + 1 * (j 0).val = win0_4.index t (0 : Fin 2) * 512 + (j 0).val by omega) rfl
  refine (congrArg (k0_pay1 (iblk m c 0 t) (iblk m c 0 t) (iblk m c 0 t) (iblk m c 1 t) (iblk m c 2 t) (iblk m c 3 t))
    (eq_ix2 (j : S512x1024.Idx))).trans ?_
  refine (pay_apply (iblk m c 0 t) (iblk m c 1 t) (iblk m c 2 t) (iblk m c 3 t) (j 0) (j 1)).trans ?_
  rw [wq_tile m c t, wc_tile m c t, bias_tile m c t, wq_entry m c, wc_entry m c, bias_entry m c]
  unfold loglik quadForm
  rw [he1]
  simp only [hx]

/-- An index of the result lies in tile `t`'s block when each coordinate lies in the block's range on its axis. -/
theorem mem_tile (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v24).slice (win0_4.rect t)).set ↔ _
  rw [View.set_slice_whole, Rect.mem_set_unit]
  exact Iff.rfl

/-- Every entry of the result is written by the tile of its row block (row / 512). -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := every_block ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_tile]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the run the result array is the layer's function of the three arguments. -/
theorem final (c : Dev nD) : (dats m 0 c).arrAt 4 cfg0.N
    = loglik (m ((c : Thread nD τ).loc main_arg0)) (m ((c : Thread nD τ).loc main_arg1)) (m ((c : Thread nD τ).loc main_arg2)) :=
  (dats m 0 c).arrAt_eq_of_cover 4 _ (fun t _ => flushed_eq m c t) covered

/-- The run, read: the result at the layer's function of the arguments, the arguments unchanged. -/
theorem run : θ_run defs (onTc (τ := τ) (main (F := Ideal))) ⟨m, fun _ => 0, ρ⟩ fun r => ∀ c : Dev nD,
      r.2.mem ((c : Thread nD τ).loc main_v24)
        = loglik (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Tiles

end
-- ==== Proof.ReferenceTiles.lean ====
/-
  The tiled computation with full-precision products, as one function of the arguments.

  The program first computes the two weight matrices wq, wc and the bias row from the centers and covariances, then runs
  a 32 × 1 grid of tiles (512 rows by all 1024 classes): each tile reads its rows of the inputs and all of wq, wc and
  the bias, and writes its rows of the result. Shown here: one tile's value at an entry is the expanded quadratic form
  there; each tile's reads are the stated parts of the arrays; the arrays the tiles find are wq, wc and the bias of the
  arguments; the 32 tiles cover the result; so the result array after the run is the layer's function
  `GaussianForm.loglik` of the three arguments.
-/
import proofs.«119700_g2000000273362702_pallasbulk_375_2_alg».proof.Proof.Gen.ReferenceIdeal.Frame
import proofs.«119700_g2000000273362702_pallasbulk_375_2_alg».proof.Proof.Gen.ReferenceIdeal.Value
import proofs.«119700_g2000000273362702_pallasbulk_375_2_alg».proof.Proof.GaussianForm
import Idealize.ShloMosaic.Lib.Pipeline.Value
import Idealize.ShloMosaic.Lib.StableHlo.Run
import Idealize.ShloMosaic.Lib.Tactic

noncomputable section

namespace Cert.ReferenceIdeal.Tiles

open Cert.ReferenceIdeal Cert.ReferenceIdeal.Gen Cert.ReferenceIdeal.Value Cert.GaussianForm
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- A tile's loads and its store start at the origin of their buffers. -/
theorem hz : (![0, 0] : Fin 2 → Nat) = fun _ => 0 := funext fun a => by fin_cases a <;> rfl

/-! ## One tile at an entry -/

/-- What a tile stores, at entry (p, q): the two contractions over the 512 features (the requested precision of a product
    plays no part on the extended reals) plus the bias of class q. -/
theorem pay_apply (x0 : Vec Ideal S512x512 .f32) (x1 x2 : Vec Ideal S512x1024 .f32) (x3 : Vec Ideal S1x1024 .f32)
    (p : Fin 512) (q : Fin 1024) :
    k0_pay1 x0 x1 x2 x3 (ix2 p q)
      = (∑ k : Fin 512, x0 (ix2 p k) * x0 (ix2 p k) * x1 (ix2 k q)) + (∑ k : Fin 512, x0 (ix2 p k) * x2 (ix2 k q)) + x3 (ix2 0 q) := by
  unfold k0_pay1
  exact tile_apply _ rfl (some .fp32) _ _ _ (mulf x0 x0) x0 x1 x2 x3 p q

/-! ## Which part of each array a tile reads and writes -/

/-- Over the 32 tiles: the input tile and the output tile are the same block of rows, the two weight matrices and the
    bias row are read whole every time, the output tile spans all classes, and the row blocks are numbered below 32. -/
theorem tile_blocks : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 31 :=
  (by decide +kernel : ∀ t : Fin grid0.N, _)

/-- Every block of 512 rows is some tile's. -/
theorem every_block : ∀ q0 : Fin 32, ∃ t : Fin cfg0.N, win0_4.index t = ![q0.val, 0] :=
  (by decide +kernel : ∀ q0 : Fin 32, ∃ t : Fin grid0.N, win0_4.index t = ![q0.val, 0])

/-- The input tile at point `t`, at entry `y`, is the input array at row (block · 512 + y₀) and column y₁. -/
theorem xtile_apply (c : Dev nD) (t : Fin cfg0.N) (y : S512x512.Idx) (i : S16384x512.Idx)
    (h0 : (i 0).val = win0_4.index t (0 : Fin 2) * 512 + (y 0).val) (h1 : (i 1).val = (y 1).val) :
    (iblk m c 0 t : Vec Ideal S512x512 .f32) y = (m ((c : Thread nD τ).loc main_arg0) : S16384x512.Idx → EReal) i := by
  obtain ⟨e0, e1, -⟩ := tile_blocks t
  unfold iblk
  rw [View.read_apply]
  show V m c main_arg0 _ = _
  rw [V_main_arg0]
  congr 1
  funext a; apply Fin.ext
  match a with
  | ⟨0, _⟩ => show win0_0.index t (0 : Fin 2) * 512 + 1 * (y 0).val = (i 0).val; omega
  | ⟨1, _⟩ => show win0_0.index t (1 : Fin 2) * 512 + 1 * (y 1).val = (i 1).val; omega

/-- Every tile reads the whole first weight matrix. -/
theorem wq_tile (c : Dev nD) (t : Fin cfg0.N) :
    (iblk m c 1 t : Vec Ideal S512x1024 .f32) = (V m c main_v18 : S512x1024.Idx → EReal) := by
  obtain ⟨-, -, e2, e3, -⟩ := tile_blocks t
  funext y
  unfold iblk
  rw [View.read_apply]
  show V m c main_v18 _ = V m c main_v18 y
  congr 1
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega

/-- Every tile reads the whole second weight matrix. -/
theorem wc_tile (c : Dev nD) (t : Fin cfg0.N) :
    (iblk m c 2 t : Vec Ideal S512x1024 .f32) = (V m c main_v20 : S512x1024.Idx → EReal) := by
  obtain ⟨-, -, -, -, e4, e5, -⟩ := tile_blocks t
  funext y
  unfold iblk
  rw [View.read_apply]
  show V m c main_v20 _ = V m c main_v20 y
  congr 1
  funext a; apply Fin.ext
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-- Every tile reads the whole bias row. -/
theorem bias_tile (c : Dev nD) (t : Fin cfg0.N) :
    (iblk m c 3 t : Vec Ideal S1x1024 .f32) = (V m c main_v21 : S1x1024.Idx → EReal) := by
  obtain ⟨-, -, -, -, -, -, e6, e7, -⟩ := tile_blocks t
  funext y
  unfold iblk
  rw [View.read_apply]
  show V m c main_v21 _ = V m c main_v21 y
  congr 1
  funext a; apply Fin.ext
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-! ## What is computed before the tiled part -/

/-- The first weight matrix as the tiled part finds it is wq of the covariances. -/
theorem wq_entry (c : Dev nD) :
    (V m c main_v18 : S512x1024.Idx → EReal) = quadWeights (m ((c : Thread nD τ).loc main_arg2)) := by
  dsimp only [V, hostOps0]
  after_results
  rfl

/-- The second weight matrix as the tiled part finds it is wc of the centers and covariances. -/
theorem wc_entry (c : Dev nD) :
    (V m c main_v20 : S512x1024.Idx → EReal)
      = crossWeights (m ((c : Thread nD τ).loc main_arg1)) (m ((c : Thread nD τ).loc main_arg2)) := by
  dsimp only [V, hostOps0]
  after_results
  rfl

/-- The bias row as the tiled part finds it is the bias of the centers and covariances. -/
theorem bias_entry (c : Dev nD) :
    (V m c main_v21 : S1x1024.Idx → EReal)
      = classBias (m ((c : Thread nD τ).loc main_arg1)) (m ((c : Thread nD τ).loc main_arg2)) := by
  dsimp only [V, hostOps0]
  after_results_simp
  rfl

/-! ## What a tile writes back, and the whole result -/

/-- What tile `t` writes back is its block of the layer's function of the three arguments: at entry j of the tile,
    row (block · 512 + j₀) of the inputs against all of the weights, and the bias of class j₁. -/
theorem flushed_eq (c : Dev nD) (t : Fin cfg0.N) :
    (dats m 0 c).flushed 4 t = ((cfg0.win 4).blk t).view.read (Elt Ideal)
      (loglik (m ((c : Thread nD τ).loc main_arg0)) (m ((c : Thread nD τ).loc main_arg1)) (m ((c : Thread nD τ).loc main_arg2))) := by
  rw [flushed4]
  unfold out0_4
  rw [View.canon_unit_zero hz]
  simp only [View.ld_unit_zero (S := S512x512) hz, View.ld_unit_zero (S := S512x1024) hz, View.ld_unit_zero (S := S1x1024) hz]
  obtain ⟨-, -, -, -, -, -, -, -, e8, e9⟩ := tile_blocks t
  funext j
  show k0_pay1 (iblk m c 0 t) (iblk m c 1 t) (iblk m c 2 t) (iblk m c 3 t) (j : S512x1024.Idx)
      = loglik (m ((c : Thread nD τ).loc main_arg0)) (m ((c : Thread nD τ).loc main_arg1)) (m ((c : Thread nD τ).loc main_arg2))
          (((cfg0.win 4).blk t).view.emb j)
  have hj0 : (j 0).val < 512 := (j 0).isLt
  have hj1 : (j 1).val < 1024 := (j 1).isLt
  have he1 : (((cfg0.win 4).blk t).view.emb j) 1 = j 1 :=
    Fin.ext (show win0_4.index t (1 : Fin 2) * 1024 + 1 * (j 1).val = (j 1).val by omega)
  have hx : ∀ k : Fin 512, (iblk m c 0 t : Vec Ideal S512x512 .f32) (ix2 (j 0) k)
      = (m ((c : Thread nD τ).loc main_arg0) : S16384x512.Idx → EReal) (ix2 ((((cfg0.win 4).blk t).view.emb j) 0) k) :=
    fun k => xtile_apply m c t _ _
      (show win0_4.index t (0 : Fin 2) * 512 + 1 * (j 0).val = win0_4.index t (0 : Fin 2) * 512 + (j 0).val by omega) rfl
  refine (congrArg (k0_pay1 (iblk m c 0 t) (iblk m c 1 t) (iblk m c 2 t) (iblk m c 3 t))
    (eq_ix2 (j : S512x1024.Idx))).trans ?_
  refine (pay_apply (iblk m c 0 t) (iblk m c 1 t) (iblk m c 2 t) (iblk m c 3 t) (j 0) (j 1)).trans ?_
  rw [wq_tile m c t, wc_tile m c t, bias_tile m c t, wq_entry m c, wc_entry m c, bias_entry m c]
  unfold loglik quadForm
  rw [he1]
  simp only [hx]

/-- An index of the result lies in tile `t`'s block when each coordinate lies in the block's range on its axis. -/
theorem mem_tile (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v22).slice (win0_4.rect t)).set ↔ _
  rw [View.set_slice_whole, Rect.mem_set_unit]
  exact Iff.rfl

/-- Every entry of the result is written by the tile of its row block (row / 512). -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := every_block ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_tile]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the run the result array is the layer's function of the three arguments. -/
theorem final (c : Dev nD) : (dats m 0 c).arrAt 4 cfg0.N
    = loglik (m ((c : Thread nD τ).loc main_arg0)) (m ((c : Thread nD τ).loc main_arg1)) (m ((c : Thread nD τ).loc main_arg2)) :=
  (dats m 0 c).arrAt_eq_of_cover 4 _ (fun t _ => flushed_eq m c t) covered

/-- The run, read: the result at the layer's function of the arguments, the arguments unchanged. -/
theorem run : θ_run defs (onTc (τ := τ) (main (F := Ideal))) ⟨m, fun _ => 0, ρ⟩ fun r => ∀ c : Dev nD,
      r.2.mem ((c : Thread nD τ).loc main_v22)
        = loglik (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ReferenceIdeal.Tiles

end
-- ==== Proof.lean ====
/-
  A Gaussian layer's log-likelihoods, computed two ways, are the same function on the extended reals.

  Both programs take inputs x (16384 × 512) and per-class centers and covariances (1024 × 512), compute from the centers
  and covariances the same two weight matrices and bias row — with e = cov + ε and r = 1 / e:  wq = (−½ · r)ᵀ,
  wc = (center · r)ᵀ,  bias = (−½ · ∑ log e − K) − ½ · ∑ center² · r, the same constants word for word — and then, tile
  by tile over blocks of 512 rows, the expanded quadratic form

      out(b, c) = ∑_d x(b,d)² · wq(d,c) + ∑_d x(b,d) · wc(d,c) + bias(c).

  They differ in the float format of the products' operands (one rounds the weights, the tile and the squared tile to
  a narrower format; the other asks for full-precision products) and in the shape of the grid (32 tiles against
  32 × 1). On the extended reals a change of format is the identity and a product's precision plays no part, so both
  result arrays are `GaussianForm.loglik` of the three arguments (KernelTiles.lean, ReferenceTiles.lean), and no law of
  arithmetic beyond that is needed: the two sums are the same sums in the same order. Each program's run — that it
  terminates, faults nowhere and leaves its arguments as they were — is the generated frame; the first program has
  no idealizing rewrite, so that it is its own idealization is immediate.
-/
import proofs.«119700_g2000000273362702_pallasbulk_375_2_alg».proof.Defs
import proofs.«119700_g2000000273362702_pallasbulk_375_2_alg».proof.Proof.Gen.Kernel
import proofs.«119700_g2000000273362702_pallasbulk_375_2_alg».proof.Proof.Gen.Kernel.Skeleton
import proofs.«119700_g2000000273362702_pallasbulk_375_2_alg».proof.Proof.Gen.Kernel.Launch
import proofs.«119700_g2000000273362702_pallasbulk_375_2_alg».proof.Proof.Gen.Kernel.Points
import proofs.«119700_g2000000273362702_pallasbulk_375_2_alg».proof.Proof.Gen.Kernel.Frame
import proofs.«119700_g2000000273362702_pallasbulk_375_2_alg».proof.Proof.Gen.KernelIdeal
import proofs.«119700_g2000000273362702_pallasbulk_375_2_alg».proof.Proof.Gen.KernelIdeal.Skeleton
import proofs.«119700_g2000000273362702_pallasbulk_375_2_alg».proof.Proof.Gen.KernelIdeal.Launch
import proofs.«119700_g2000000273362702_pallasbulk_375_2_alg».proof.Proof.Gen.KernelIdeal.Points
import proofs.«119700_g2000000273362702_pallasbulk_375_2_alg».proof.Proof.Gen.KernelIdeal.Frame
import proofs.«119700_g2000000273362702_pallasbulk_375_2_alg».proof.Proof.Gen.ReferenceIdeal
import proofs.«119700_g2000000273362702_pallasbulk_375_2_alg».proof.Proof.Gen.ReferenceIdeal.Skeleton
import proofs.«119700_g2000000273362702_pallasbulk_375_2_alg».proof.Proof.Gen.ReferenceIdeal.Launch
import proofs.«119700_g2000000273362702_pallasbulk_375_2_alg».proof.Proof.Gen.ReferenceIdeal.Points
import proofs.«119700_g2000000273362702_pallasbulk_375_2_alg».proof.Proof.Gen.ReferenceIdeal.Frame
import proofs.«119700_g2000000273362702_pallasbulk_375_2_alg».proof.Proof.Gen.Pre_finite_inputs
import proofs.«119700_g2000000273362702_pallasbulk_375_2_alg».proof.Proof.Gen.KernelIdeal.Value
import proofs.«119700_g2000000273362702_pallasbulk_375_2_alg».proof.Proof.Gen.ReferenceIdeal.Value
import proofs.«119700_g2000000273362702_pallasbulk_375_2_alg».proof.Proof.GaussianForm
import proofs.«119700_g2000000273362702_pallasbulk_375_2_alg».proof.Proof.KernelTiles
import proofs.«119700_g2000000273362702_pallasbulk_375_2_alg».proof.Proof.ReferenceTiles
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the second program. -/
theorem frame_referenceIdeal : Cert.frame_ReferenceIdeal := fun m ρ _ => Cert.ReferenceIdeal.Gen.frame m ρ

/-- No operation of the first program was rewritten for the reading on the extended reals: nothing to preserve. -/
theorem preserves : Cert.preserves_Kernel_KernelIdeal := trivial

/-- From memories that agree on the three arguments both programs end with their result arrays at the layer's function
    of those arguments, hence equal entry by entry. -/
theorem algebraic : Cert.algebraic_KernelIdeal_ReferenceIdeal := by
  intro m ρ m' ρ' _ hagree
  refine ⟨fun c => Cert.GaussianForm.loglik
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Tiles.run m ρ, ?_⟩
  refine (θ_run Cert.ReferenceIdeal.defs _ _).mono (fun _ h c => ?_) (Cert.ReferenceIdeal.Tiles.run m' ρ')
  refine ⟨(h c).1.trans ?_, (h c).2⟩
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
